-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x100 : Shape := ⟨3, ![16, 128, 100]⟩
abbrev S16x128x128 : Shape := ⟨3, ![16, 128, 128]⟩
abbrev S200x128 : Shape := ⟨2, ![200, 128]⟩
abbrev S128 : Shape := ⟨1, ![128]⟩
abbrev S128x128 : Shape := ⟨2, ![128, 128]⟩
abbrev S_ : Shape := ⟨0, ![]⟩

class Facts : Prop where
  bcast_S_S16x128x100 : S_.BroadcastsInDim S16x128x100 (![] : Fin 0 → Fin S16x128x100.rank)
  reducesTo_S16x128x100_S_d0_1_2 : S16x128x100.ReducesTo [0, 1, 2] S_
  h_S_ : 0 < S_.numel
  bcast_S_S16x128x128 : S_.BroadcastsInDim S16x128x128 (![] : Fin 0 → Fin S16x128x128.rank)
  reducesTo_S16x128x128_S_d0_1_2 : S16x128x128.ReducesTo [0, 1, 2] S_
  bcast_S_S200x128 : S_.BroadcastsInDim S200x128 (![] : Fin 0 → Fin S200x128.rank)
  reducesTo_S200x128_S_d0_1 : S200x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S16x128x100 .f32) (main_arg1 : FVec F S16x128x128 .f32) (main_arg2 : FVec F S200x128 .f32) (main_arg3 : FVec F S128 .f32) (main_arg4 : FVec F S128x128 .f32) (main_arg5 : FVec F S128 .f32) : IVec S_ 1 :=
  let main_v0 : FVec F S16x128x100 .f32 := Host.absf main_arg0
  let main_cst : FVec F S_ .f32 := constant S_ .f32 0x7F800000#32
  let main_v1 : FVec F S16x128x100 .f32 := broadcastInDim S16x128x100 ![] bcast_S_S16x128x100 main_cst
  let main_v2 : IVec S16x128x100 1 := cmpf .olt main_v0 main_v1
  let main_c : IVec S_ 1 := constantI S_ 1 1#1
  let main_v3 : IVec S_ 1 := (fun x v => Host.reduce IntOp.andi x v reducesTo_S16x128x100_S_d0_1_2 h_S_) main_v2 main_c
  let main_v4 : FVec F S16x128x128 .f32 := Host.absf main_arg1
  let main_cst_0 : FVec F S_ .f32 := constant S_ .f32 0x7F800000#32
  let main_v5 : FVec F S16x128x128 .f32 := broadcastInDim S16x128x128 ![] bcast_S_S16x128x128 main_cst_0
  let main_v6 : IVec S16x128x128 1 := cmpf .olt main_v4 main_v5
  let main_c_1 : IVec S_ 1 := constantI S_ 1 1#1
  let main_v7 : IVec S_ 1 := (fun x v => Host.reduce IntOp.andi x v reducesTo_S16x128x128_S_d0_1_2 h_S_) main_v6 main_c_1
  let main_v8 : IVec S_ 1 := andi main_v3 main_v7
  let main_v9 : FVec F S200x128 .f32 := Host.absf main_arg2
  let main_cst_2 : FVec F S_ .f32 := constant S_ .f32 0x7F800000#32
  let main_v10 : FVec F S200x128 .f32 := broadcastInDim S200x128 ![] bcast_S_S200x128 main_cst_2
  let main_v11 : IVec S200x128 1 := cmpf .olt main_v9 main_v10
  let main_c_3 : IVec S_ 1 := constantI S_ 1 1#1
  let main_v12 : IVec S_ 1 := (fun x v => Host.reduce IntOp.andi x v reducesTo_S200x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S16x128x100 : Shape := ⟨3, ![16, 128, 100]⟩
abbrev S16x128x128 : Shape := ⟨3, ![16, 128, 128]⟩
abbrev S200x128 : Shape := ⟨2, ![200, 128]⟩
abbrev S128 : Shape := ⟨1, ![128]⟩
abbrev S128x128 : Shape := ⟨2, ![128, 128]⟩
abbrev S100x128 : Shape := ⟨2, ![100, 128]⟩
abbrev S1x128x100 : Shape := ⟨3, ![1, 128, 100]⟩
abbrev S1x128x128 : Shape := ⟨3, ![1, 128, 128]⟩
abbrev S128x100 : Shape := ⟨2, ![128, 100]⟩
abbrev S1x128 : Shape := ⟨2, ![1, 128]⟩
abbrev S32x128 : Shape := ⟨2, ![32, 128]⟩
abbrev S32x1x128 : Shape := ⟨3, ![32, 1, 128]⟩
abbrev S32x128x128 : Shape := ⟨3, ![32, 128, 128]⟩
abbrev S4096x128 : Shape := ⟨2, ![4096, 128]⟩
abbrev S32x128x1 : Shape := ⟨3, ![32, 128, 1]⟩
abbrev S1x32x128 : Shape := ⟨3, ![1, 32, 128]⟩

abbrev nBuf : Space → Nat
  | .hbm => 15
  | .vmem => 11
  | .smem => 0
  | _ => 0

abbrev bufTy : (tb : Table) → Fin (tcTables nBuf tb) → BufTy
  | .hbm, ⟨0, _⟩ => ⟨S16x128x100, .f32⟩
  | .hbm, ⟨1, _⟩ => ⟨S16x128x128, .f32⟩
  | .hbm, ⟨2, _⟩ => ⟨S200x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100x128, .f32⟩
  | .hbm, ⟨7, _⟩ => ⟨S100x128, .f32⟩
  | .hbm, ⟨8, _⟩ => ⟨S100x128, .f32⟩
  | .hbm, ⟨9, _⟩ => ⟨S100x128, .bf16⟩
  | .hbm, ⟨10, _⟩ => ⟨S100x128, .f32⟩
  | .hbm, ⟨11, _⟩ => ⟨S100x128, .bf16⟩
  | .hbm, ⟨12, _⟩ => ⟨S128x128, .bf16⟩
  | .hbm, ⟨13, _⟩ => ⟨S16x128x100, .bf16⟩
  | .hbm, ⟨14, _⟩ => ⟨S16x128x128, .f32⟩
  | .local _ .vmem, ⟨0, _⟩ => ⟨S1x128x100, .bf16⟩
  | .local _ .vmem, ⟨1, _⟩ => ⟨S1x128x100, .bf16⟩
  | .local _ .vmem, ⟨2, _⟩ => ⟨S1x128x128, .f32⟩
  | .local _ .vmem, ⟨3, _⟩ => ⟨S1x128x128, .f32⟩
  | .local _ .vmem, ⟨4, _⟩ => ⟨S100x128, .bf16⟩
  | .local _ .vmem, ⟨5, _⟩ => ⟨S100x128, .bf16⟩
  | .local _ .vmem, ⟨6, _⟩ => ⟨S128, .f32⟩
  | .local _ .vmem, ⟨7, _⟩ => ⟨S128x128, .bf16⟩
  | .local _ .vmem, ⟨8, _⟩ => ⟨S128, .f32⟩
  | .local _ .vmem, ⟨9, _⟩ => ⟨S1x128x128, .f32⟩
  | .local _ .vmem, ⟨10, _⟩ => ⟨S1x128x128, .f32⟩
  | _, _ => ⟨S16x128x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x100 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S100x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S100x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S200x128_S100x128_0_0 : S200x128.Slices ![0, 0] S100x128
  slices_S200x128_S100x128_100_0 : S200x128.Slices ![100, 0] S100x128
  bitsLt_bf16_f32 : FTy.bits .bf16 < FTy.bits .f32
  inb_S1x128x100_S1x128x100_0_0_0 : ∀ a, (![0, 0, 0] : Fin 3 → Nat) a + S1x128x100.size a ≤ S1x128x100.size a
  h_S1x128x100 : 0 < S1x128x100.numel
  shapeCasts_S1x128x100_S128x100 : S1x128x100.ShapeCasts S128x100
  inb_S100x128_S100x128_0_0 : ∀ a, (![0, 0] : Fin 2 → Nat) a + S100x128.size a ≤ S100x128.size a
  h_S100x128 : 0 < S100x128.numel
  shapeCasts_S100x128_S100x128 : S100x128.ShapeCasts S100x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128_S1x128 : S128.ShapeCasts S1x128
  broadcasts_S1x128_S128x128 : S1x128.Broadcasts S128x128
  slices_S128x128_o0_0_S32x128 : S128x128.Slices ![0, 0] S32x128
  shapeCasts_S32x128_S32x1x128 : S32x128.ShapeCasts S32x1x128
  shapeCasts_S128x128_S1x128x128 : S128x128.ShapeCasts S1x128x128
  broadcasts_S32x1x128_S32x128x128 : S32x1x128.Broadcasts S32x128x128
  broadcasts_S1x128x128_S32x128x128 : S1x128x128.Broadcasts S32x128x128
  shapeCasts_S32x128x128_S4096x128 : S32x128x128.ShapeCasts S4096x128
  broadcasts_S1x128_S4096x128 : S1x128.Broadcasts S4096x128
  shapeCasts_S4096x128_S32x128x128 : S4096x128.ShapeCasts S32x128x128
  shapeCasts_S32x128_S32x128x1 : S32x128.ShapeCasts S32x128x1
  broadcasts_S32x128x1_S32x128x128 : S32x128x1.Broadcasts S32x128x128
  reduces_S32x128x128_S32x128 : S32x128x128.Reduces [1] S32x128
  inb_S1x128x128_S1x32x128_0_0_0 : ∀ a, (![0, 0, 0] : Fin 3 → Nat) a + S1x32x128.size a ≤ S1x128x128.size a
  h_S1x32x128 : 0 < S1x32x128.numel
  shapeCasts_S1x32x128_S32x128 : S1x32x128.ShapeCasts S32x128
  shapeCasts_S32x128_S1x32x128 : S32x128.ShapeCasts S1x32x128
  slices_S128x128_o32_0_S32x128 : S128x128.Slices ![32, 0] S32x128
  inb_S1x128x128_S1x32x128_0_32_0 : ∀ a, (![0, 32, 0] : Fin 3 → Nat) a + S1x32x128.size a ≤ S1x128x128.size a
  slices_S128x128_o64_0_S32x128 : S128x128.Slices ![64, 0] S32x128
  inb_S1x128x128_S1x32x128_0_64_0 : ∀ a, (![0, 64, 0] : Fin 3 → Nat) a + S1x32x128.size a ≤ S1x128x128.size a
  slices_S128x128_o96_0_S32x128 : S128x128.Slices ![96, 0] S32x128
  inb_S1x128x128_S1x32x128_0_96_0 : ∀ a, (![0, 96, 0] : Fin 3 → Nat) a + S1x32x128.size a ≤ S1x128x128.size a
  dot_S128x100_S100x128_S128x128_1_0_0_1_n_n_wf : DotDims.WF S128x100 S100x128 S128x128 [1] [0] [0] [1] [] []
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x100.size a ≤ S16x128x100.size a
  hwx0_0 : ∀ i : grid0.Coords, EltTy.bits .bf16 = 32 ∨ (Rect.block (s := S16x128x100) S1x128x100.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S16x128x128.size a
  hwx0_1 : ∀ i : grid0.Coords, EltTy.bits .f32 = 32 ∨ (Rect.block (s := S16x128x128) S1x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100x128.size a ≤ S100x128.size a
  hwx0_2 : ∀ i : grid0.Coords, EltTy.bits .bf16 = 32 ∨ (Rect.block (s := S100x128) S100x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x128.size a ≤ S100x128.size a
  hwx0_3 : ∀ i : grid0.Coords, EltTy.bits .bf16 = 32 ∨ (Rect.block (s := S100x128) S100x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128x128.size a ≤ S16x128x128.size a
  hwx0_7 : ∀ i : grid0.Coords, EltTy.bits .f32 = 32 ∨ (Rect.block (s := S16x128x128) S1x128x128.size (cc0_transform_7 i) (hinb0_7 i)).WholeWords (EltTy.packing .f32)

variable [Facts₀]

def dot_S128x100_S100x128_S128x128_1_0_0_1_n_n : DotDims S128x100 S100x128 S128x128 where
  lhsContracting := [1]
  rhsContracting := [0]
  lhsNonContracting := [0]
  rhsNonContracting := [1]
  lhsBatch := []
  rhsBatch := []
  wf := dot_S128x100_S100x128_S128x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v7) S1x128x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S100x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S100x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x128x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x128x100 : Shape := ⟨3, ![16, 128, 100]⟩
abbrev S16x128x128 : Shape := ⟨3, ![16, 128, 128]⟩
abbrev S200x128 : Shape := ⟨2, ![200, 128]⟩
abbrev S128 : Shape := ⟨1, ![128]⟩
abbrev S128x128 : Shape := ⟨2, ![128, 128]⟩
abbrev S100x128 : Shape := ⟨2, ![100, 128]⟩
abbrev S1x1x128 : Shape := ⟨3, ![1, 1, 128]⟩
abbrev S16x128x1x128 : Shape := ⟨4, ![16, 128, 1, 128]⟩
abbrev S16x1x128x128 : Shape := ⟨4, ![16, 1, 128, 128]⟩
abbrev S16x128x128x128 : Shape := ⟨4, ![16, 128, 128, 128]⟩
abbrev S_ : Shape := ⟨0, ![]⟩
abbrev S1x1x1x128 : Shape := ⟨4, ![1, 1, 1, 128]⟩
abbrev S16x128x128x1 : Shape := ⟨4, ![16, 128, 128, 1]⟩

abbrev nBuf : Space → Nat
  | .hbm => 34
  | .vmem => 0
  | .smem => 0
  | _ => 0

abbrev bufTy : (tb : Table) → Fin (tcTables nBuf tb) → BufTy
  | .hbm, ⟨0, _⟩ => ⟨S16x128x100, .f32⟩
  | .hbm, ⟨1, _⟩ => ⟨S16x128x128, .f32⟩
  | .hbm, ⟨2, _⟩ => ⟨S200x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100x128, .f32⟩
  | .hbm, ⟨7, _⟩ => ⟨S100x128, .f32⟩
  | .hbm, ⟨8, _⟩ => ⟨S100x128, .f32⟩
  | .hbm, ⟨9, _⟩ => ⟨S16x128x128, .f32⟩
  | .hbm, ⟨10, _⟩ => ⟨S1x1x128, .f32⟩
  | .hbm, ⟨11, _⟩ => ⟨S16x128x128, .f32⟩
  | .hbm, ⟨12, _⟩ => ⟨S16x128x128, .f32⟩
  | .hbm, ⟨13, _⟩ => ⟨S16x128x128, .f32⟩
  | .hbm, ⟨14, _⟩ => ⟨S16x128x1x128, .f32⟩
  | .hbm, ⟨15, _⟩ => ⟨S16x1x128x128, .f32⟩
  | .hbm, ⟨16, _⟩ => ⟨S16x128x128x128, .f32⟩
  | .hbm, ⟨17, _⟩ => ⟨S16x128x128x128, .f32⟩
  | .hbm, ⟨18, _⟩ => ⟨S16x128x128x128, .f32⟩
  | .hbm, ⟨19, _⟩ => ⟨S_, .f32⟩
  | .hbm, ⟨20, _⟩ => ⟨S16x128x128x128, .f32⟩
  | .hbm, ⟨21, _⟩ => ⟨S16x128x128x128, .f32⟩
  | .hbm, ⟨22, _⟩ => ⟨S16x128x128x128, .f32⟩
  | .hbm, ⟨23, _⟩ => ⟨S1x1x1x128, .f32⟩
  | .hbm, ⟨24, _⟩ => ⟨S16x128x128x128, .f32⟩
  | .hbm, ⟨25, _⟩ => ⟨S16x128x128x128, .f32⟩
  | .hbm, ⟨26, _⟩ => ⟨S_, .f32⟩
  | .hbm, ⟨27, _⟩ => ⟨S16x128x128x128, .f32⟩
  | .hbm, ⟨28, _⟩ => ⟨S16x128x128x128, .f32⟩
  | .hbm, ⟨29, _⟩ => ⟨S16x128x128x1, .f32⟩
  | .hbm, ⟨30, _⟩ => ⟨S16x128x128x128, .f32⟩
  | .hbm, ⟨31, _⟩ => ⟨S16x128x128x128, .f32⟩
  | .hbm, ⟨32, _⟩ => ⟨S_, .f32⟩
  | .hbm, ⟨33, _⟩ => ⟨S16x128x128, .f32⟩
  | _, _ => ⟨S16x128x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_cst : Ref sig .tc := ⟨.hbm, 19, rfl⟩
abbrev main_call0_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call1_cst : Ref sig .tc := ⟨.hbm, 26, rfl⟩
abbrev main_call1_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  slices_S200x128_S100x128_0_0 : S200x128.Slices ![0, 0] S100x128
  slices_S200x128_S100x128_100_0 : S200x128.Slices ![100, 0] S100x128
  bcast_S128_S1x1x128_2 : S128.BroadcastsInDim S1x1x128 (![2] : Fin 1 → Fin S1x1x128.rank)
  bcast_S1x1x128_S16x128x128_0_1_2 : S1x1x128.BroadcastsInDim S16x128x128 (![0, 1, 2] : Fin 3 → Fin S16x128x128.rank)
  bcast_S16x128x128_S16x128x1x128_0_1_3 : S16x128x128.BroadcastsInDim S16x128x1x128 (![0, 1, 3] : Fin 3 → Fin S16x128x1x128.rank)
  bcast_S16x128x128_S16x1x128x128_0_2_3 : S16x128x128.BroadcastsInDim S16x1x128x128 (![0, 2, 3] : Fin 3 → Fin S16x1x128x128.rank)
  bcast_S16x128x1x128_S16x128x128x128_0_1_2_3 : S16x128x1x128.BroadcastsInDim S16x128x128x128 (![0, 1, 2, 3] : Fin 4 → Fin S16x128x128x128.rank)
  bcast_S16x1x128x128_S16x128x128x128_0_1_2_3 : S16x1x128x128.BroadcastsInDim S16x128x128x128 (![0, 1, 2, 3] : Fin 4 → Fin S16x128x128x128.rank)
  bcast_S_S16x128x128x128 : S_.BroadcastsInDim S16x128x128x128 (![] : Fin 0 → Fin S16x128x128x128.rank)
  bcast_S128_S1x1x1x128_3 : S128.BroadcastsInDim S1x1x1x128 (![3] : Fin 1 → Fin S1x1x1x128.rank)
  bcast_S1x1x1x128_S16x128x128x128_0_1_2_3 : S1x1x1x128.BroadcastsInDim S16x128x128x128 (![0, 1, 2, 3] : Fin 4 → Fin S16x128x128x128.rank)
  bcast_S16x128x128_S16x128x128x1_0_1_2 : S16x128x128.BroadcastsInDim S16x128x128x1 (![0, 1, 2] : Fin 3 → Fin S16x128x128x1.rank)
  bcast_S16x128x128x1_S16x128x128x128_0_1_2_3 : S16x128x128x1.BroadcastsInDim S16x128x128x128 (![0, 1, 2, 3] : Fin 4 → Fin S16x128x128x128.rank)
  reducesTo_S16x128x128x128_S16x128x128_d2 : S16x128x128x128.ReducesTo [2] S16x128x128
  h_S_ : 0 < S_.numel
  dot_S16x128x100_S100x128_S16x128x128_2_0_01_1_n_n_wf : DotDims.WF S16x128x100 S100x128 S16x128x128 [2] [0] [0, 1] [1] [] []
  dot_S16x128x128x128_S128x128_S16x128x128x128_3_0_012_1_n_n_wf : DotDims.WF S16x128x128x128 S128x128 S16x128x128x128 [3] [0] [0, 1, 2] [1] [] []

variable [Facts₀]

def dot_S16x128x100_S100x128_S16x128x128_2_0_01_1_n_n : DotDims S16x128x100 S100x128 S16x128x128 where
  lhsContracting := [2]
  rhsContracting := [0]
  lhsNonContracting := [0, 1]
  rhsNonContracting := [1]
  lhsBatch := []
  rhsBatch := []
  wf := dot_S16x128x100_S100x128_S16x128x128_2_0_01_1_n_n_wf
def dot_S16x128x128x128_S128x128_S16x128x128x128_3_0_012_1_n_n : DotDims S16x128x128x128 S128x128 S16x128x128x128 where
  lhsContracting := [3]
  rhsContracting := [0]
  lhsNonContracting := [0, 1, 2]
  rhsNonContracting := [1]
  lhsBatch := []
  rhsBatch := []
  wf := dot_S16x128x128x128_S128x128_S16x128x128x128_3_0_012_1_n_n_wf

class Facts : Prop extends Facts₀ where

variable [Facts]
-- ==== Proof.Spec.lean ====
/-
  The function both programs compute, written once over the six argument arrays.

  For a batch b, a node i and an output channel h the result is a maximum over the neighbours j of a
  two-layer perceptron applied to the pair (i, j), multiplied by the adjacency weight of the pair:

      out[b,i,h] = max_j  relu( (sum_k relu(u[b,i,k] + v[b,j,k]) * W2[k,h]) + b2[h] ) * adj[b,i,j]

  where the first layer is split into a part that depends on i only and a part that depends on j only,

      u[b,i,k] = (sum_f x[b,i,f] * (W1[f,k] - W1[100+f,k])) + b1[k],      v[b,j,k] = sum_f x[b,j,f] * W1[100+f,k].

  The maximum starts from the float pattern of minus infinity. Everything is read on the extended reals.
-/
import Idealize.ShloMosaic.PureOps.Ideal.Laws
import Idealize.ShloMosaic.Lib.ValueIdx

noncomputable section

open scoped BigOperators

namespace Cert.PairMax

open Idealize.ShloMosaic Idealize.ShloMosaic.ValueIdx

/-- The masked maximum over the neighbours, for one (node, channel): `u k` is the node's first-layer part, `v j k` the
    neighbours', `w k` the channel's column of the second layer, `β` its bias, `a j` the adjacency weights of the node's row. -/
def edgeMax (u : Fin 128 → EReal) (v : Fin 128 → Fin 128 → EReal) (w : Fin 128 → EReal) (β : EReal) (a : Fin 128 → EReal) : EReal :=
  (Finset.univ : Finset (Fin 128)).fold max (Ideal.ofBits .f32 0xFF800000#32)
    (fun j => max ((∑ k : Fin 128, max (u k + v j k) 0 * w k) + β) 0 * a j)

/-- Row `f` of the upper half of the first layer's weights. -/
abbrev lo (f : Fin 100) : Fin 200 := ⟨f.val, by omega⟩
/-- Row `f` of the lower half of the first layer's weights. -/
abbrev hi (f : Fin 100) : Fin 200 := ⟨100 + f.val, by omega⟩

/-- The first layer's part that depends on the node itself. -/
def uPart (x : (⟨3, ![16, 128, 100]⟩ : Shape).Idx → EReal) (W1 : (⟨2, ![200, 128]⟩ : Shape).Idx → EReal)
    (b1 : (⟨1, ![128]⟩ : Shape).Idx → EReal) (b : Fin 16) (i k : Fin 128) : EReal :=
  (∑ f : Fin 100, x (ix3 b i f) * (W1 (ix2 (lo f) k) - W1 (ix2 (hi f) k))) + b1 (ix1 k)

/-- The first layer's part that depends on the neighbour. -/
def vPart (x : (⟨3, ![16, 128, 100]⟩ : Shape).Idx → EReal) (W1 : (⟨2, ![200, 128]⟩ : Shape).Idx → EReal)
    (b : Fin 16) (j k : Fin 128) : EReal :=
  ∑ f : Fin 100, x (ix3 b j f) * W1 (ix2 (hi f) k)

/-- The whole result array as one function of the argument arrays. -/
def out (x : (⟨3, ![16, 128, 100]⟩ : Shape).Idx → EReal) (adj : (⟨3, ![16, 128, 128]⟩ : Shape).Idx → EReal)
    (W1 : (⟨2, ![200, 128]⟩ : Shape).Idx → EReal) (b1 : (⟨1, ![128]⟩ : Shape).Idx → EReal)
    (W2 : (⟨2, ![128, 128]⟩ : Shape).Idx → EReal) (b2 : (⟨1, ![128]⟩ : Shape).Idx → EReal) :
    (⟨3, ![16, 128, 128]⟩ : Shape).Idx → EReal :=
  fun y => edgeMax (fun k => uPart x W1 b1 (y 0) (y 1) k) (fun j k => vPart x W1 (y 0) j k)
    (fun k => W2 (ix2 k (y 2))) (b2 (ix1 (y 2))) (fun j => adj (ix3 (y 0) (y 1) j))

end Cert.PairMax

end
-- ==== Proof.Layout.lean ====
/-
  The re-arrangements of a tile of 32 nodes, read at an index written by coordinates.

  A tile holds, for 32 nodes r, 128 neighbours j and 128 channels, a value at (r, j, channel). It is built from
  matrices by adding a unit axis and repeating along it (a row per node repeated over the neighbours, a row per
  neighbour repeated over the nodes, a weight per pair repeated over the channels), it is flattened to 4096 rows for
  the matrix product and cut back, and at the end the maximum over the neighbour axis is taken.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.PairMax

open Idealize.ShloMosaic Idealize.ShloMosaic.ValueIdx

variable {α : Type}

/-- A matrix with a row per node, given a unit neighbour axis: (r, 0, k) reads (r, k). -/
theorem castNodeRow_apply (X : (⟨2, ![32, 128]⟩ : Shape).Idx → α)
    (h : (⟨2, ![32, 128]⟩ : Shape).ShapeCasts ⟨3, ![32, 1, 128]⟩) (r : Fin 32) (u : Fin 1) (k : Fin 128) :
    shapeCast ⟨3, ![32, 1, 128]⟩ X h (ix3 r u k) = X (ix2 r k) :=
  shapeCast_apply X h _ _ (by
    have hu : u.val = 0 := by omega
    rw [Shape.rowMajor_val_three, Shape.rowMajor_val_two]
    show r.val * 128 + k.val = (r.val * 1 + u.val) * 128 + k.val
    rw [hu, Nat.mul_one, Nat.add_zero])

/-- A matrix with a weight per (node, neighbour), given a unit channel axis: (r, j, 0) reads (r, j). -/
theorem castPairWeight_apply (X : (⟨2, ![32, 128]⟩ : Shape).Idx → α)
    (h : (⟨2, ![32, 128]⟩ : Shape).ShapeCasts ⟨3, ![32, 128, 1]⟩) (r : Fin 32) (j : Fin 128) (u : Fin 1) :
    shapeCast ⟨3, ![32, 128, 1]⟩ X h (ix3 r j u) = X (ix2 r j) :=
  shapeCast_apply X h _ _ (by
    have hu : u.val = 0 := by omega
    rw [Shape.rowMajor_val_three, Shape.rowMajor_val_two]
    show r.val * 128 + j.val = (r.val * 128 + j.val) * 1 + u.val
    rw [hu, Nat.mul_one, Nat.add_zero])

/-- The node rows repeated over the neighbours: (r, j, k) reads (r, 0, k). -/
theorem bcastNodeRow_apply (X : (⟨3, ![32, 1, 128]⟩ : Shape).Idx → α)
    (h : (⟨3, ![32, 1, 128]⟩ : Shape).Broadcasts ⟨3, ![32, 128, 128]⟩) (r : Fin 32) (j k : Fin 128) :
    broadcastTo ⟨3, ![32, 128, 128]⟩ X h (ix3 r j k) = X (ix3 r (0 : Fin 1) k) := by
  refine broadcastTo_apply X h (ix3 r j k) (ix3 r (0 : Fin 1) k) fun ax => ?_
  match ax with
  | ⟨0, _⟩ => show r.val = if (32 : Nat) = 1 then 0 else r.val; rw [if_neg (by decide)]
  | ⟨1, _⟩ => show 0 = if (1 : Nat) = 1 then 0 else j.val; rw [if_pos rfl]
  | ⟨2, _⟩ => show k.val = if (128 : Nat) = 1 then 0 else k.val; rw [if_neg (by decide)]

/-- The neighbour rows repeated over the nodes: (r, j, k) reads (0, j, k). -/
theorem bcastNeighbourRow_apply (X : (⟨3, ![1, 128, 128]⟩ : Shape).Idx → α)
    (h : (⟨3, ![1, 128, 128]⟩ : Shape).Broadcasts ⟨3, ![32, 128, 128]⟩) (r : Fin 32) (j k : Fin 128) :
    broadcastTo ⟨3, ![32, 128, 128]⟩ X h (ix3 r j k) = X (ix3 (0 : Fin 1) j k) := by
  refine broadcastTo_apply X h (ix3 r j k) (ix3 (0 : Fin 1) j k) fun ax => ?_
  match ax with
  | ⟨0, _⟩ => show 0 = if (1 : Nat) = 1 then 0 else r.val; rw [if_pos rfl]
  | ⟨1, _⟩ => show j.val = if (128 : Nat) = 1 then 0 else j.val; rw [if_neg (by decide)]
  | ⟨2, _⟩ => show k.val = if (128 : Nat) = 1 then 0 else k.val; rw [if_neg (by decide)]

/-- The pair weights repeated over the channels: (r, j, c) reads (r, j, 0). -/
theorem bcastPairWeight_apply (X : (⟨3, ![32, 128, 1]⟩ : Shape).Idx → α)
    (h : (⟨3, ![32, 128, 1]⟩ : Shape).Broadcasts ⟨3, ![32, 128, 128]⟩) (r : Fin 32) (j c : Fin 128) :
    broadcastTo ⟨3, ![32, 128, 128]⟩ X h (ix3 r j c) = X (ix3 r j (0 : Fin 1)) := by
  refine broadcastTo_apply X h (ix3 r j c) (ix3 r j (0 : Fin 1)) fun ax => ?_
  match ax with
  | ⟨0, _⟩ => show r.val = if (32 : Nat) = 1 then 0 else r.val; rw [if_neg (by decide)]
  | ⟨1, _⟩ => show j.val = if (128 : Nat) = 1 then 0 else j.val; rw [if_neg (by decide)]
  | ⟨2, _⟩ => show 0 = if (1 : Nat) = 1 then 0 else c.val; rw [if_pos rfl]

/-- One row repeated over `n` rows: (p, c) reads (0, c). -/
theorem bcastRow_apply {n : Nat} (X : (⟨2, ![1, 128]⟩ : Shape).Idx → α)
    (h : (⟨2, ![1, 128]⟩ : Shape).Broadcasts ⟨2, ![n, 128]⟩) (p : Fin n) (c : Fin 128) :
    broadcastTo ⟨2, ![n, 128]⟩ X h (ix2 p c) = X (ix2 (0 : Fin 1) c) := by
  refine broadcastTo_apply X h (ix2 p c) (ix2 (0 : Fin 1) c) fun ax => ?_
  match ax with
  | ⟨0, _⟩ => show 0 = if (1 : Nat) = 1 then 0 else p.val; rw [if_pos rfl]
  | ⟨1, _⟩ => show c.val = if (128 : Nat) = 1 then 0 else c.val; rw [if_neg (by decide)]

/-- The tile flattened to 4096 rows: row r * 128 + j, column k reads (r, j, k). -/
theorem flatten_apply (X : (⟨3, ![32, 128, 128]⟩ : Shape).Idx → α)
    (h : (⟨3, ![32, 128, 128]⟩ : Shape).ShapeCasts ⟨2, ![4096, 128]⟩) (n : Fin 4096) (k : Fin 128)
    (r : Fin 32) (j : Fin 128) (hn : n.val = r.val * 128 + j.val) :
    shapeCast ⟨2, ![4096, 128]⟩ X h (ix2 n k) = X (ix3 r j k) :=
  shapeCast_apply X h _ _ (by
    rw [Shape.rowMajor_val_three, Shape.rowMajor_val_two]
    show (r.val * 128 + j.val) * 128 + k.val = n.val * 128 + k.val
    rw [hn])

/-- The 4096 rows cut back into the tile: (r, j, c) reads row r * 128 + j, column c. -/
theorem unflatten_apply (Y : (⟨2, ![4096, 128]⟩ : Shape).Idx → α)
    (h : (⟨2, ![4096, 128]⟩ : Shape).ShapeCasts ⟨3, ![32, 128, 128]⟩) (r : Fin 32) (j c : Fin 128)
    (n : Fin 4096) (hn : n.val = r.val * 128 + j.val) :
    shapeCast ⟨3, ![32, 128, 128]⟩ Y h (ix3 r j c) = Y (ix2 n c) :=
  shapeCast_apply Y h _ _ (by
    rw [Shape.rowMajor_val_three, Shape.rowMajor_val_two]
    show n.val * 128 + c.val = (r.val * 128 + j.val) * 128 + c.val
    rw [hn])

/-- The maximum over the neighbour axis of a tile, stored with a leading unit axis: at (0, r, c) it is the fold of
    `max` from the accumulator's value over the neighbours j of the tile at (r, j, c). -/
theorem rowMax_apply (M : FVec Ideal ⟨3, ![32, 128, 128]⟩ .f32)
    (hr : (⟨3, ![32, 128, 128]⟩ : Shape).Reduces [1] ⟨2, ![32, 128]⟩) (hφ : FKind.Formats .f32)
    (hacc : (0xFF800000#32 : BitVec 32) = FKind.maximumf.neutral .f32 hφ)
    (hc : (⟨2, ![32, 128]⟩ : Shape).ShapeCasts ⟨3, ![1, 32, 128]⟩) (u : Fin 1) (r : Fin 32) (c : Fin 128) :
    shapeCast ⟨3, ![1, 32, 128]⟩ (multiReduction (F := Ideal) .maximumf [1] ⟨2, ![32, 128]⟩ M 0xFF800000#32 hr hφ hacc) hc (ix3 u r c)
      = (Finset.univ : Finset (Fin 128)).fold max (Ideal.ofBits .f32 0xFF800000#32) (fun j => M (ix3 r j c)) := by
  rw [shapeCast_ab_1ab_apply]
  refine (Ideal.multiReduction_maximumf_single M _ hr hφ hacc (ix2 r c)).trans ?_
  refine congrArg (fun g => (Finset.univ : Finset (Fin 128)).fold max (Ideal.ofBits .f32 0xFF800000#32) g) ?_
  funext j
  show M (hr.lift (ix2 r c) j) = M (ix3 r j c)
  refine congrArg M (funext fun a => Fin.ext ?_)
  match a with
  | ⟨0, _⟩ => rfl
  | ⟨1, _⟩ => rfl
  | ⟨2, _⟩ => rfl

end Cert.PairMax

end
-- ==== Proof.KernelDots.lean ====
/-
  The kernel's two matrix products, read at an index.

  Into a zero accumulator a matrix product is, at (p, q), the sum over the one contracted coordinate of the left
  operand at (p, ·) times the right operand at (·, q): over the 100 input features for the first layer, over the 128
  hidden channels for the second.
-/
import proofs.«127921_j56195352101070_2_alg».proof.Proof.Gen.KernelIdeal
import Idealize.ShloMosaic.PureOps.Ideal.Laws
import Idealize.ShloMosaic.Lib.ValueIdx

noncomputable section

open scoped BigOperators

namespace Cert.PairMax

open Idealize.ShloMosaic Idealize.ShloMosaic.ValueIdx Cert.KernelIdeal Cert.KernelIdeal.Gen

/-! ## The first layer: 128 nodes by 100 features times 100 features by 128 channels -/

/-- The left operand's row is the result's row. -/
theorem firstDot_lhs_row (i : S128x128.Idx) (q : dot_S128x100_S100x128_S128x128_1_0_0_1_n_n.contr.Idx) :
    (dot_S128x100_S100x128_S128x128_1_0_0_1_n_n.lhsIdx i q 0).val = (i 0).val := by
  unfold DotDims.lhsIdx
  rw [dif_neg (show ¬(0 : Fin S128x100.rank) ∈ dot_S128x100_S100x128_S128x128_1_0_0_1_n_n.lhsBatch by decide),
    dif_pos (show (0 : Fin S128x100.rank) ∈ dot_S128x100_S100x128_S128x128_1_0_0_1_n_n.lhsNonContracting by decide)]
  rfl
/-- The left operand's column is the contracted coordinate. -/
theorem firstDot_lhs_col (i : S128x128.Idx) (q : dot_S128x100_S100x128_S128x128_1_0_0_1_n_n.contr.Idx) :
    (dot_S128x100_S100x128_S128x128_1_0_0_1_n_n.lhsIdx i q 1).val = (q ⟨0, by decide⟩).val :=
  dot_S128x100_S100x128_S128x128_1_0_0_1_n_n.lhsIdx_val_of_single rfl i q
/-- The right operand's row is the contracted coordinate. -/
theorem firstDot_rhs_row (i : S128x128.Idx) (q : dot_S128x100_S100x128_S128x128_1_0_0_1_n_n.contr.Idx) :
    (dot_S128x100_S100x128_S128x128_1_0_0_1_n_n.rhsIdx i q 0).val = (q ⟨0, by decide⟩).val :=
  dot_S128x100_S100x128_S128x128_1_0_0_1_n_n.rhsIdx_val_of_single rfl i q
/-- The right operand's column is the result's column. -/
theorem firstDot_rhs_col (i : S128x128.Idx) (q : dot_S128x100_S100x128_S128x128_1_0_0_1_n_n.contr.Idx) :
    (dot_S128x100_S100x128_S128x128_1_0_0_1_n_n.rhsIdx i q 1).val = (i 1).val := by
  unfold DotDims.rhsIdx
  rw [dif_neg (show ¬(1 : Fin S100x128.rank) ∈ dot_S128x100_S100x128_S128x128_1_0_0_1_n_n.rhsBatch by decide),
    dif_pos (show (1 : Fin S100x128.rank) ∈ dot_S128x100_S100x128_S128x128_1_0_0_1_n_n.rhsNonContracting by decide)]
  rfl

/-- The first layer's product at (p, q) is the sum over the features. -/
theorem firstLayerDot_apply (L : FVec Ideal S128x100 .bf16) (R : FVec Ideal S100x128 .bf16) (p q : Fin 128) :
    matmul dot_S128x100_S100x128_S128x128_1_0_0_1_n_n none L R (constant (F := Ideal) S128x128 .f32 0x00000000#32) (ix2 p q)
      = ∑ f : Fin 100, L (ix2 p f) * R (ix2 f q) := by
  simp only [matmul]
  rw [Ideal.matmul_constant_zero_apply, ← Equiv.sum_comp (contrEquiv1 dot_S128x100_S100x128_S128x128_1_0_0_1_n_n 100 rfl rfl).symm]
  refine Finset.sum_congr rfl fun k _ => ?_
  have hk := contrEquiv1_symm_val dot_S128x100_S100x128_S128x128_1_0_0_1_n_n 100 rfl rfl k
  have el : dot_S128x100_S100x128_S128x128_1_0_0_1_n_n.lhsIdx (ix2 p q) ((contrEquiv1 dot_S128x100_S100x128_S128x128_1_0_0_1_n_n 100 rfl rfl).symm k) = ix2 p k :=
    funext fun a => Fin.ext (by
      match a with
      | ⟨0, _⟩ => exact firstDot_lhs_row _ _
      | ⟨1, _⟩ => exact (firstDot_lhs_col _ _).trans hk)
  have er : dot_S128x100_S100x128_S128x128_1_0_0_1_n_n.rhsIdx (ix2 p q) ((contrEquiv1 dot_S128x100_S100x128_S128x128_1_0_0_1_n_n 100 rfl rfl).symm k) = ix2 k q :=
    funext fun a => Fin.ext (by
      match a with
      | ⟨0, _⟩ => exact (firstDot_rhs_row _ _).trans hk
      | ⟨1, _⟩ => exact firstDot_rhs_col _ _)
  rw [el, er]

/-! ## The second layer: the 4096 flattened (node, neighbour) rows by 128 hidden channels times 128 by 128 -/

theorem secondDot_lhs_row (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide),
    dif_pos (show (0 : Fin S4096x128.rank) ∈ dot_S4096x128_S128x128_S4096x128_1_0_0_1_n_n.lhsNonContracting by decide)]
  rfl
theorem secondDot_lhs_col (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem secondDot_rhs_row (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem secondDot_rhs_col (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide),
    dif_pos (show (1 : Fin S128x128.rank) ∈ dot_S4096x128_S128x128_S4096x128_1_0_0_1_n_n.rhsNonContracting by decide)]
  rfl

/-- The second layer's product at (n, q) is the sum over the hidden channels. -/
theorem secondLayerDot_apply (L : FVec Ideal S4096x128 .bf16) (R : FVec Ideal S128x128 .bf16) (n : Fin 4096) (q : Fin 128) :
    matmul dot_S4096x128_S128x128_S4096x128_1_0_0_1_n_n none L R (constant (F := Ideal) S4096x128 .f32 0x00000000#32) (ix2 n q)
      = ∑ k : Fin 128, L (ix2 n k) * R (ix2 k q) := by
  simp only [matmul]
  rw [Ideal.matmul_constant_zero_apply, ← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 n q) ((contrEquiv1 dot_S4096x128_S128x128_S4096x128_1_0_0_1_n_n 128 rfl rfl).symm k) = ix2 n k :=
    funext fun a => Fin.ext (by
      match a with
      | ⟨0, _⟩ => exact secondDot_lhs_row _ _
      | ⟨1, _⟩ => exact (secondDot_lhs_col _ _).trans hk)
  have er : dot_S4096x128_S128x128_S4096x128_1_0_0_1_n_n.rhsIdx (ix2 n q) ((contrEquiv1 dot_S4096x128_S128x128_S4096x128_1_0_0_1_n_n 128 rfl rfl).symm k) = ix2 k q :=
    funext fun a => Fin.ext (by
      match a with
      | ⟨0, _⟩ => exact (secondDot_rhs_row _ _).trans hk
      | ⟨1, _⟩ => exact secondDot_rhs_col _ _)
  rw [el, er]

end Cert.PairMax

end
-- ==== Proof.Tile.lean ====
/-
  One tile of 32 nodes of the kernel's body, read at an index.

  The body computes the first layer's two parts u and v for the 128 nodes of a batch once, then four times, for the
  nodes o ≤ i < o + 32 (o = 0, 32, 64, 96), the hidden values relu(u[i] + v[j]) for every neighbour j, their product
  with the second layer's weights plus its bias, relu, the product with the adjacency weight of (i, j), and the
  maximum over j. Here that tile is one function of the row offset o, and its value at (node r of the tile, channel c)
  is the masked maximum of the specification at node o + r.
-/
import proofs.«127921_j56195352101070_2_alg».proof.Proof.Gen.KernelIdeal.Skeleton
import proofs.«127921_j56195352101070_2_alg».proof.Proof.Spec
import proofs.«127921_j56195352101070_2_alg».proof.Proof.Layout
import proofs.«127921_j56195352101070_2_alg».proof.Proof.KernelDots

noncomputable section

open scoped BigOperators

namespace Cert.PairMax

open Idealize.ShloMosaic Idealize.ShloMosaic.ValueIdx Cert.KernelIdeal Cert.KernelIdeal.Gen

/-- The bf16 zero pattern is the extended real 0. -/
theorem zero_bf16 : (Scalar.ofBits (F := Ideal) .bf16 0x0000#16 : Ideal .bf16) = 0 := by
  simp [Scalar.ofBits, Ideal.ofBits, Ideal.ieee]

/-- The f32 zero pattern is the extended real 0. -/
theorem zero_f32 : (Scalar.ofBits (F := Ideal) .f32 0x00000000#32 : Ideal .f32) = 0 := by
  simp [Scalar.ofBits, Ideal.ofBits, Ideal.ieee]

/-- The hidden values of the tile at row offset `o`: relu(U[o + r] + Vn[j]) at (r, j, ·). -/
def tileHidden (o : Nat) (hs : S128x128.Slices ![o, 0] S32x128) (U Vn : FVec Ideal S128x128 .bf16) : FVec Ideal S32x128x128 .bf16 :=
  maximumf
    (addf
      (broadcastTo S32x128x128 (shapeCast S32x1x128 (extractStridedSlice S32x128 ![o, 0] U hs) shapeCasts_S32x128_S32x1x128) broadcasts_S32x1x128_S32x128x128)
      (broadcastTo S32x128x128 (shapeCast S1x128x128 Vn shapeCasts_S128x128_S1x128x128) broadcasts_S1x128x128_S32x128x128))
    (broadcast S32x128x128 (Scalar.ofBits .bf16 0x0000#16))

theorem tileHidden_apply (o : Nat) (ho : o + 32 ≤ 128) (hs : S128x128.Slices ![o, 0] S32x128) (U Vn : FVec Ideal S128x128 .bf16)
    (r : Fin 32) (j k : Fin 128) :
    tileHidden o hs U Vn (ix3 r j k) = max (U (ix2 (⟨o + r.val, by omega⟩ : Fin 128) k) + Vn (ix2 j k)) 0 := by
  unfold tileHidden
  show max (broadcastTo S32x128x128 _ broadcasts_S32x1x128_S32x128x128 (ix3 r j k)
      + broadcastTo S32x128x128 _ broadcasts_S1x128x128_S32x128x128 (ix3 r j k)) (Scalar.ofBits (F := Ideal) .bf16 0x0000#16) = _
  rw [bcastNodeRow_apply, castNodeRow_apply, bcastNeighbourRow_apply, shapeCast_ab_1ab_apply, zero_bf16,
    slice2_axis0_apply o U hs r k (⟨o + r.val, by omega⟩ : Fin 128) rfl]

/-- The tile at row offset `o`, as the body stores it: [1, 32, 128]. -/
def tileOut (o : Nat) (hs : S128x128.Slices ![o, 0] S32x128) (W : FVec Ideal S128x128 .bf16) (β : Vec Ideal S128 .f32)
    (A : FVec Ideal S128x128 .f32) (U Vn : FVec Ideal S128x128 .bf16) : FVec Ideal S1x32x128 .f32 :=
  shapeCast S1x32x128
    (multiReduction .maximumf [1] S32x128
      (mulf
        (shapeCast S32x128x128
          (maximumf
            (addf
              (matmul dot_S4096x128_S128x128_S4096x128_1_0_0_1_n_n none
                (shapeCast S4096x128 (tileHidden o hs U Vn) shapeCasts_S32x128x128_S4096x128) W (constant S4096x128 .f32 0x00000000#32))
              (broadcastTo S4096x128 (shapeCast S1x128 β shapeCasts_S128_S1x128) broadcasts_S1x128_S4096x128))
            (broadcast S4096x128 (Scalar.ofBits .f32 0x00000000#32)))
          shapeCasts_S4096x128_S32x128x128)
        (broadcastTo S32x128x128 (shapeCast S32x128x1 (extractStridedSlice S32x128 ![o, 0] A hs) shapeCasts_S32x128_S32x128x1) broadcasts_S32x128x1_S32x128x128))
      0xFF800000#32 reduces_S32x128x128_S32x128 (.inl rfl) rfl)
    shapeCasts_S32x128_S1x32x128

/-- The tile at (node r of the tile, channel c) is the masked maximum over the neighbours, at node o + r. -/
theorem tileOut_apply (o : Nat) (ho : o + 32 ≤ 128) (hs : S128x128.Slices ![o, 0] S32x128) (W : FVec Ideal S128x128 .bf16)
    (β : Vec Ideal S128 .f32) (A : FVec Ideal S128x128 .f32) (U Vn : FVec Ideal S128x128 .bf16) (u : Fin 1) (r : Fin 32) (c : Fin 128) :
    tileOut o hs W β A U Vn (ix3 u r c)
      = edgeMax (fun k => U (ix2 (⟨o + r.val, by omega⟩ : Fin 128) k)) (fun j k => Vn (ix2 j k)) (fun k => W (ix2 k c)) (β (ix1 c))
          (fun j => A (ix2 (⟨o + r.val, by omega⟩ : Fin 128) j)) := by
  unfold tileOut edgeMax
  refine (rowMax_apply _ reduces_S32x128x128_S32x128 _ _ shapeCasts_S32x128_S1x32x128 u r c).trans ?_
  refine congrArg (fun g => (Finset.univ : Finset (Fin 128)).fold max (Ideal.ofBits .f32 0xFF800000#32) g) (funext fun j => ?_)
  show shapeCast S32x128x128 _ shapeCasts_S4096x128_S32x128x128 (ix3 r j c)
      * broadcastTo S32x128x128 _ broadcasts_S32x128x1_S32x128x128 (ix3 r j c) = _
  have hn : r.val * 128 + j.val < 4096 := by have := r.isLt; have := j.isLt; omega
  rw [bcastPairWeight_apply, castPairWeight_apply, slice2_axis0_apply o A hs r j (⟨o + r.val, by omega⟩ : Fin 128) rfl,
    unflatten_apply _ _ r j c (⟨r.val * 128 + j.val, hn⟩ : Fin 4096) rfl]
  show max (matmul dot_S4096x128_S128x128_S4096x128_1_0_0_1_n_n none _ W (constant (F := Ideal) S4096x128 .f32 0x00000000#32) (ix2 (⟨r.val * 128 + j.val, hn⟩ : Fin 4096) c)
      + broadcastTo S4096x128 _ broadcasts_S1x128_S4096x128 (ix2 (⟨r.val * 128 + j.val, hn⟩ : Fin 4096) c)) (Scalar.ofBits (F := Ideal) .f32 0x00000000#32) * _ = _
  rw [secondLayerDot_apply, bcastRow_apply, shapeCast_a_1a_apply, zero_f32]
  refine congrArg (fun s => max (s + β (ix1 c)) 0 * A (ix2 (⟨o + r.val, by omega⟩ : Fin 128) j)) (Finset.sum_congr rfl fun k _ => ?_)
  rw [flatten_apply _ _ (⟨r.val * 128 + j.val, hn⟩ : Fin 4096) k r j rfl, tileHidden_apply o ho]

/-! ## The first layer's two parts, for the 128 nodes of the batch -/

/-- The node's own part: the product of the batch's features with the difference weights, plus the bias. -/
theorem nodePart_apply (v0 : Vec Ideal S1x128x100 .bf16) (v2 : Vec Ideal S100x128 .bf16) (v8 : Vec Ideal S128 .f32) (i k : Fin 128) :
    k0_pay6 v0 v2 v8 (ix2 i k) = (∑ f : Fin 100, v0 (ix3 (0 : Fin 1) i f) * v2 (ix2 f k)) + v8 (ix1 k) := by
  unfold k0_pay6 k0_pay3
  show matmul dot_S128x100_S100x128_S128x128_1_0_0_1_n_n none _ _ (constant (F := Ideal) S128x128 .f32 0x00000000#32) (ix2 i k)
      + broadcastTo S128x128 _ broadcasts_S1x128_S128x128 (ix2 i k) = _
  rw [firstLayerDot_apply, bcastRow_apply, shapeCast_a_1a_apply, shapeCast_self]
  refine congrArg (fun s => s + v8 (ix1 k)) (Finset.sum_congr rfl fun f _ => ?_)
  rw [shapeCast_1ab_ab_apply]

/-- The neighbour's part: the product of the batch's features with the lower weights. -/
theorem neighbourPart_apply (v0 : Vec Ideal S1x128x100 .bf16) (v4 : Vec Ideal S100x128 .bf16) (j k : Fin 128) :
    k0_pay7 v0 v4 (ix2 j k) = ∑ f : Fin 100, v0 (ix3 (0 : Fin 1) j f) * v4 (ix2 f k) := by
  unfold k0_pay7 k0_pay3
  show matmul dot_S128x100_S100x128_S128x128_1_0_0_1_n_n none _ _ (constant (F := Ideal) S128x128 .f32 0x00000000#32) (ix2 j k) = _
  rw [firstLayerDot_apply, shapeCast_self]
  refine Finset.sum_congr rfl fun f _ => ?_
  rw [shapeCast_1ab_ab_apply]

end Cert.PairMax

end
-- ==== Proof.Block.lean ====
/-
  What the body leaves in the result block, as one function of the seven input blocks.

  The body stores four tiles of 32 nodes each, at node offsets 0, 32, 64 and 96; together they fill the block of the
  128 nodes of the batch. Each stored tile is the tile function at its offset, so at (0, node i, channel c) the block
  holds the masked maximum for node i: its own first-layer part from the block of features and the difference weights,
  the neighbours' from the block of features and the lower weights.
-/
import proofs.«127921_j56195352101070_2_alg».proof.Proof.Gen.KernelIdeal.Frame
import proofs.«127921_j56195352101070_2_alg».proof.Proof.Tile

noncomputable section

open scoped BigOperators

namespace Cert.PairMax

open Idealize.ShloMosaic Idealize.ShloMosaic.ValueIdx Cert.KernelIdeal Cert.KernelIdeal.Gen

/-- The result block from the input blocks: features `x0` [1,128,100], adjacency `x1` [1,128,128], difference weights `x2`,
    lower weights `x3`, first bias `x4`, second weights `x5`, second bias `x6`. -/
def blockOut (x0 : Vec Ideal S1x128x100 .bf16) (x1 : Vec Ideal S1x128x128 .f32) (x2 x3 : Vec Ideal S100x128 .bf16)
    (x4 : Vec Ideal S128 .f32) (x5 : Vec Ideal S128x128 .bf16) (x6 : Vec Ideal S128 .f32) : Vec Ideal S1x128x128 .f32 :=
  fun y => edgeMax (fun k => (∑ f : Fin 100, x0 (ix3 (0 : Fin 1) (y 1) f) * x2 (ix2 f k)) + x4 (ix1 k))
    (fun j k => ∑ f : Fin 100, x0 (ix3 (0 : Fin 1) j f) * x3 (ix2 f k))
    (fun k => x5 (ix2 k (y 2))) (x6 (ix1 (y 2))) (fun j => x1 (ix3 (0 : Fin 1) (y 1) j))

/-- The loaded second-layer weights, cast to their own shape, are themselves. -/
theorem secondWeights_eq (v6 : Vec Ideal S128x128 .bf16) : k0_pay4 v6 = v6 := by
  unfold k0_pay4; exact shapeCast_self _ _

/-- The loaded adjacency block without its unit axis: (i, j) reads (0, i, j). -/
theorem adjacency_apply (v10 : Vec Ideal S1x128x128 .f32) (i j : Fin 128) : k0_pay5 v10 (ix2 i j) = v10 (ix3 (0 : Fin 1) i j) := by
  unfold k0_pay5; exact shapeCast_1ab_ab_apply _ _ i j

/-- The tile at offset `o`, of the body's own intermediate values, at (·, r, c) is the block function at any block index
    whose node is o + r and whose channel is c. -/
theorem tile_eq_blockOut (o : Nat) (ho : o + 32 ≤ 128) (hs : S128x128.Slices ![o, 0] S32x128)
    (x0 : Vec Ideal S1x128x100 .bf16) (x1 : Vec Ideal S1x128x128 .f32) (x2 x3 : Vec Ideal S100x128 .bf16)
    (x4 : Vec Ideal S128 .f32) (x5 : Vec Ideal S128x128 .bf16) (x6 : Vec Ideal S128 .f32)
    (u : Fin 1) (r : Fin 32) (c : Fin 128) (y : S1x128x128.Idx) (h1 : (y 1).val = o + r.val) (h2 : (y 2).val = c.val) :
    tileOut o hs (k0_pay4 x5) x6 (k0_pay5 x1) (k0_pay6 x0 x2 x4) (k0_pay7 x0 x3) (ix3 u r c) = blockOut x0 x1 x2 x3 x4 x5 x6 y := by
  rw [tileOut_apply o ho]
  unfold blockOut
  have e1 : y 1 = (⟨o + r.val, by omega⟩ : Fin 128) := Fin.ext h1
  have e2 : y 2 = c := Fin.ext h2
  rw [e1, e2]
  simp only [nodePart_apply, neighbourPart_apply, secondWeights_eq, adjacency_apply]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The four stored tiles are the tile function at offsets 0, 32, 64, 96 -/

theorem stored0_eq_tile (v0 : Vec Ideal S1x128x100 .bf16) (v2 v4 : Vec Ideal S100x128 .bf16) (v6 : Vec Ideal S128x128 .bf16)
    (v8 v9 : Vec Ideal S128 .f32) (v10 : Vec Ideal S1x128x128 .f32) :
    k0_pay9 (k0_pay8 v0 v2 v4 v6 v8 v9 v10)
      = tileOut 0 slices_S128x128_o0_0_S32x128 (k0_pay4 v6) v9 (k0_pay5 v10) (k0_pay6 v0 v2 v8) (k0_pay7 v0 v4) := rfl

theorem stored32_eq_tile (v7 : FVec Ideal S128x128 .bf16) (v9 : Vec Ideal S128 .f32) (v11 : FVec Ideal S128x128 .f32)
    (v17 v18 : FVec Ideal S128x128 .bf16) :
    k0_pay10 v7 v9 v11 v17 v18 = tileOut 32 slices_S128x128_o32_0_S32x128 v7 v9 v11 v17 v18 := rfl

theorem stored64_eq_tile (v7 : FVec Ideal S128x128 .bf16) (v9 : Vec Ideal S128 .f32) (v11 : FVec Ideal S128x128 .f32)
    (v17 v18 : FVec Ideal S128x128 .bf16) :
    k0_pay1 (k0_pay11 v7 v9 v17 v18) (k0_pay12 v11) = tileOut 64 slices_S128x128_o64_0_S32x128 v7 v9 v11 v17 v18 := rfl

theorem stored96_eq_tile (v7 : FVec Ideal S128x128 .bf16) (v9 : Vec Ideal S128 .f32) (v11 : FVec Ideal S128x128 .f32)
    (v17 v18 : FVec Ideal S128x128 .bf16) :
    k0_pay2 v7 v9 v11 v17 v18 = tileOut 96 slices_S128x128_o96_0_S32x128 v7 v9 v11 v17 v18 := rfl

section Pieces
variable (x0 : Vec Ideal S1x128x100 .bf16) (x1 : Vec Ideal S1x128x128 .f32) (x2 x3 : Vec Ideal S100x128 .bf16)
  (x4 : Vec Ideal S128 .f32) (x5 : Vec Ideal S128x128 .bf16) (x6 : Vec Ideal S128 .f32)

/-- The tile stored at nodes 0 … 31 agrees with the block function under its rectangle. -/
theorem piece0 (x : S1x32x128.Idx) :
    k0_pay9 (k0_pay8 x0 x2 x3 x5 x4 x6 x1) x = blockOut x0 x1 x2 x3 x4 x5 x6 (r0_5.emb x) := by
  obtain ⟨u, r, c, rfl⟩ : ∃ (u : Fin 1) (r : Fin 32) (c : Fin 128), x = ix3 u r c := ⟨x 0, x 1, x 2, eq_ix3 x⟩
  rw [stored0_eq_tile]
  exact tile_eq_blockOut 0 (by omega) slices_S128x128_o0_0_S32x128 x0 x1 x2 x3 x4 x5 x6 u r c (r0_5.emb (ix3 u r c))
    (by show 0 + 1 * r.val = 0 + r.val; omega) (by show 0 + 1 * c.val = c.val; omega)

/-- The tile stored at nodes 32 … 63. -/
theorem piece32 (x : S1x32x128.Idx) :
    k0_pay10 (k0_pay4 x5) x6 (k0_pay5 x1) (k0_pay6 x0 x2 x4) (k0_pay7 x0 x3) x = blockOut x0 x1 x2 x3 x4 x5 x6 (r0_6.emb x) := by
  obtain ⟨u, r, c, rfl⟩ : ∃ (u : Fin 1) (r : Fin 32) (c : Fin 128), x = ix3 u r c := ⟨x 0, x 1, x 2, eq_ix3 x⟩
  rw [stored32_eq_tile]
  exact tile_eq_blockOut 32 (by omega) slices_S128x128_o32_0_S32x128 x0 x1 x2 x3 x4 x5 x6 u r c (r0_6.emb (ix3 u r c))
    (by show 32 + 1 * r.val = 32 + r.val; omega) (by show 0 + 1 * c.val = c.val; omega)

/-- The tile stored at nodes 64 … 95. -/
theorem piece64 (x : S1x32x128.Idx) :
    k0_pay1 (k0_pay11 (k0_pay4 x5) x6 (k0_pay6 x0 x2 x4) (k0_pay7 x0 x3)) (k0_pay12 (k0_pay5 x1)) x
      = blockOut x0 x1 x2 x3 x4 x5 x6 (r0_7.emb x) := by
  obtain ⟨u, r, c, rfl⟩ : ∃ (u : Fin 1) (r : Fin 32) (c : Fin 128), x = ix3 u r c := ⟨x 0, x 1, x 2, eq_ix3 x⟩
  rw [stored64_eq_tile]
  exact tile_eq_blockOut 64 (by omega) slices_S128x128_o64_0_S32x128 x0 x1 x2 x3 x4 x5 x6 u r c (r0_7.emb (ix3 u r c))
    (by show 64 + 1 * r.val = 64 + r.val; omega) (by show 0 + 1 * c.val = c.val; omega)

/-- The tile stored at nodes 96 … 127. -/
theorem piece96 (x : S1x32x128.Idx) :
    k0_pay2 (k0_pay4 x5) x6 (k0_pay5 x1) (k0_pay6 x0 x2 x4) (k0_pay7 x0 x3) x = blockOut x0 x1 x2 x3 x4 x5 x6 (r0_8.emb x) := by
  obtain ⟨u, r, c, rfl⟩ : ∃ (u : Fin 1) (r : Fin 32) (c : Fin 128), x = ix3 u r c := ⟨x 0, x 1, x 2, eq_ix3 x⟩
  rw [stored96_eq_tile]
  exact tile_eq_blockOut 96 (by omega) slices_S128x128_o96_0_S32x128 x0 x1 x2 x3 x4 x5 x6 u r c (r0_8.emb (ix3 u r c))
    (by show 96 + 1 * r.val = 96 + r.val; omega) (by show 0 + 1 * c.val = c.val; omega)

/-- The body's result block is the block function of its input blocks: every stored tile agrees with it under its
    rectangle, and the four rectangles cover the block. -/
theorem out_eq_blockOut : out0_7 x0 x1 x2 x3 x4 x5 x6 = blockOut x0 x1 x2 x3 x4 x5 x6 := by
  funext y
  unfold out0_7
  simp only [View.ld_unit_zero (S := S1x128x100) hz3, View.ld_unit_zero (S := S1x128x128) hz3,
    View.ld_unit_zero (S := S100x128) hz2, View.ld_unit_zero (S := S128x128) hz2, View.ld_unit_zero (S := S128) hz1]
  refine View.canon_apply_of_pieces (Val := Elt Ideal) (blockOut x0 x1 x2 x3 x4 x5 x6) _ ?_ y (cover0_7 _ _ _ _ y)
  refine List.forall_mem_cons.2 ⟨fun x => ?_, List.forall_mem_cons.2 ⟨fun x => ?_, List.forall_mem_cons.2 ⟨fun x => ?_,
    List.forall_mem_cons.2 ⟨fun x => ?_, fun _ h => absurd h List.not_mem_nil⟩⟩⟩⟩
  · dsimp only at x ⊢
    exact piece96 x0 x1 x2 x3 x4 x5 x6 x
  · dsimp only at x ⊢
    exact piece64 x0 x1 x2 x3 x4 x5 x6 x
  · dsimp only at x ⊢
    exact piece32 x0 x1 x2 x3 x4 x5 x6 x
  · dsimp only at x ⊢
    exact piece0 x0 x1 x2 x3 x4 x5 x6 x

end Pieces

end Cert.PairMax

end
-- ==== Proof.KernelValue.lean ====
/-
  The kernel's result array as the specification of the argument arrays.

  Grid point t handles batch t: it reads batch t's blocks of the features and of the adjacency weights and the whole
  of the five small arrays, and writes batch t's block of the result. Before the region the host computes the small
  arrays the region reads: the features and the second weights unchanged (a change of float format is the identity on
  the extended reals), the lower half of the first weights, and the upper half minus the lower half. So what point t
  writes back is batch t's block of the specification, and the sixteen blocks fill the result array.
-/
import proofs.«127921_j56195352101070_2_alg».proof.Proof.Gen.KernelIdeal.Value
import proofs.«127921_j56195352101070_2_alg».proof.Proof.Block
import Idealize.ShloMosaic.Lib.StableHlo.Run
import Idealize.ShloMosaic.Lib.Pipeline.Value

noncomputable section

open scoped BigOperators

namespace Cert.PairMax

open Idealize.ShloMosaic Idealize.ShloMosaic.ValueIdx Idealize.ShloMosaic.TcCoe Idealize.SL.Sem
open Cert.KernelIdeal Cert.KernelIdeal.Gen
open Idealize.ShloMosaic.Pipeline (Dat)

variable (m : (ℓ : Loc nD τ sig) → Buf (Elt Ideal) ℓ) (ρ : Dev nD → PrngReg)

/-! ## The argument arrays, as functions to the extended reals -/

/-- The node features, [16, 128, 100]. -/
abbrev features (c : Dev nD) : (⟨3, ![16, 128, 100]⟩ : Shape).Idx → EReal := m ((c : Thread nD τ).loc main_arg0)
/-- The adjacency weights, [16, 128, 128]. -/
abbrev adjacency (c : Dev nD) : (⟨3, ![16, 128, 128]⟩ : Shape).Idx → EReal := m ((c : Thread nD τ).loc main_arg1)
/-- The first layer's weights, [200, 128]. -/
abbrev firstWeights (c : Dev nD) : (⟨2, ![200, 128]⟩ : Shape).Idx → EReal := m ((c : Thread nD τ).loc main_arg2)
/-- The first layer's bias, [128]. -/
abbrev firstBias (c : Dev nD) : (⟨1, ![128]⟩ : Shape).Idx → EReal := m ((c : Thread nD τ).loc main_arg3)
/-- The second layer's weights, [128, 128]. -/
abbrev secondWeights (c : Dev nD) : (⟨2, ![128, 128]⟩ : Shape).Idx → EReal := m ((c : Thread nD τ).loc main_arg4)
/-- The second layer's bias, [128]. -/
abbrev secondBias (c : Dev nD) : (⟨1, ![128]⟩ : Shape).Idx → EReal := m ((c : Thread nD τ).loc main_arg5)

/-! ## The arrays the region finds, as functions of the arguments -/

/-- The features the region reads are the argument's. -/
theorem found_features (c : Dev nD) :
    (V m c main_v7 : S16x128x100.Idx → EReal) = features m c := by
  dsimp only [Gen.V, Gen.hostOps0]; after_results <;> rfl

/-- The second weights the region reads are the argument's. -/
theorem found_secondWeights (c : Dev nD) :
    (V m c main_v6 : S128x128.Idx → EReal) = secondWeights m c := by
  dsimp only [Gen.V, Gen.hostOps0]; after_results <;> rfl

/-- The lower weights the region reads: rows 100 … 199 of the first weights. -/
theorem found_lowerWeights (c : Dev nD) :
    (V m c main_v5 : S100x128.Idx → EReal)
      = extractStridedSlice S100x128 ![100, 0] (firstWeights m c) slices_S200x128_S100x128_100_0 := by
  dsimp only [Gen.V, Gen.hostOps0]; after_results <;> rfl

/-- The difference weights the region reads: rows 0 … 99 minus rows 100 … 199 of the first weights. -/
theorem found_differenceWeights (c : Dev nD) :
    (V m c main_v3 : S100x128.Idx → EReal)
      = subf (F := Ideal) (φ := .f32)
          (extractStridedSlice S100x128 ![0, 0] (firstWeights m c) slices_S200x128_S100x128_0_0)
          (extractStridedSlice S100x128 ![100, 0] (firstWeights m c) slices_S200x128_S100x128_100_0) := by
  dsimp only [Gen.V, Gen.hostOps0]; after_results <;> rfl

/-! ## The windows' index maps over the grid -/

/-- Decided over the sixteen points: the features', the adjacency's and the result's windows move with the point along
    the batch axis; the five small arrays' windows stay at block 0. -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 3) = t.val ∧ win0_7.index t (1 : Fin 3) = 0 ∧ win0_7.index t (2 : Fin 3) = 0 :=
  (by decide +kernel : ∀ t : Fin grid0.N, _)

/-! ## The input blocks at a point, read off the arguments -/

section Blocks
variable (c : Dev nD) (t : Fin cfg0.N) (b : Fin 16)

/-- The features' block at point t is batch t of the features. -/
theorem featuresBlock_apply (hb : b.val = t.val) (u : Fin 1) (i : Fin 128) (f : Fin 100) :
    iblk m c 0 t (ix3 u i f) = features m c (ix3 b i f) := by
  show V m c main_v7 (((cfg0.win 0).blk t).view.emb (ix3 u i f)) = _
  rw [found_features]
  refine congrArg _ (funext fun a => Fin.ext ?_)
  obtain ⟨e0, e1, e2, -⟩ := index_facts t
  have hu : u.val = 0 := by omega
  match a with
  | ⟨0, _⟩ => show win0_0.index t (0 : Fin 3) * 1 + 1 * u.val = b.val; omega
  | ⟨1, _⟩ => show win0_0.index t (1 : Fin 3) * 128 + 1 * i.val = i.val; omega
  | ⟨2, _⟩ => show win0_0.index t (2 : Fin 3) * 100 + 1 * f.val = f.val; omega

/-- The adjacency's block at point t is batch t of the adjacency weights. -/
theorem adjacencyBlock_apply (hb : b.val = t.val) (u : Fin 1) (i j : Fin 128) :
    iblk m c 1 t (ix3 u i j) = adjacency m c (ix3 b i j) := by
  show V m c main_arg1 (((cfg0.win 1).blk t).view.emb (ix3 u i j)) = _
  rw [V_main_arg1]
  refine congrArg _ (funext fun a => Fin.ext ?_)
  obtain ⟨-, -, -, e0, e1, e2, -⟩ := index_facts t
  have hu : u.val = 0 := by omega
  match a with
  | ⟨0, _⟩ => show win0_1.index t (0 : Fin 3) * 1 + 1 * u.val = b.val; omega
  | ⟨1, _⟩ => show win0_1.index t (1 : Fin 3) * 128 + 1 * i.val = i.val; omega
  | ⟨2, _⟩ => show win0_1.index t (2 : Fin 3) * 128 + 1 * j.val = j.val; omega

/-- The difference weights' block is the whole array: upper row f minus lower row f of the first weights. -/
theorem differenceBlock_apply (f : Fin 100) (k : Fin 128) :
    iblk m c 2 t (ix2 f k)
      = firstWeights m c (ix2 (lo f) k) - firstWeights m c (ix2 (hi f) k) := by
  show V m c main_v3 (((cfg0.win 2).blk t).view.emb (ix2 f k)) = _
  rw [found_differenceWeights]
  obtain ⟨-, -, -, -, -, -, e0, e1, -⟩ := index_facts t
  have he : ((cfg0.win 2).blk t).view.emb (ix2 f k) = ix2 f k := funext fun a => Fin.ext (by
    match a with
    | ⟨0, _⟩ => show win0_2.index t (0 : Fin 2) * 100 + 1 * f.val = f.val; omega
    | ⟨1, _⟩ => show win0_2.index t (1 : Fin 2) * 128 + 1 * k.val = k.val; omega)
  rw [he, subf_apply, slice2_axis0_apply 0 _ _ f k (lo f) (by show f.val = 0 + f.val; omega),
    slice2_axis0_apply 100 _ _ f k (hi f) rfl]

/-- The lower weights' block is the whole array: lower row f of the first weights. -/
theorem lowerBlock_apply (f : Fin 100) (k : Fin 128) :
    iblk m c 3 t (ix2 f k) = firstWeights m c (ix2 (hi f) k) := by
  show V m c main_v5 (((cfg0.win 3).blk t).view.emb (ix2 f k)) = _
  rw [found_lowerWeights]
  obtain ⟨-, -, -, -, -, -, -, -, e0, e1, -⟩ := index_facts t
  have he : ((cfg0.win 3).blk t).view.emb (ix2 f k) = ix2 f k := funext fun a => Fin.ext (by
    match a with
    | ⟨0, _⟩ => show win0_3.index t (0 : Fin 2) * 100 + 1 * f.val = f.val; omega
    | ⟨1, _⟩ => show win0_3.index t (1 : Fin 2) * 128 + 1 * k.val = k.val; omega)
  rw [he, slice2_axis0_apply 100 _ _ f k (hi f) rfl]

/-- The first bias' block is the whole array. -/
theorem firstBiasBlock_apply (k : Fin 128) :
    iblk m c 4 t (ix1 k) = firstBias m c (ix1 k) := by
  show V m c main_arg3 (((cfg0.win 4).blk t).view.emb (ix1 k)) = _
  rw [V_main_arg3]
  obtain ⟨-, -, -, -, -, -, -, -, -, -, e0, -⟩ := index_facts t
  refine congrArg _ (funext fun a => Fin.ext ?_)
  match a with
  | ⟨0, _⟩ => show win0_4.index t (0 : Fin 1) * 128 + 1 * k.val = k.val; omega

/-- The second weights' block is the whole array. -/
theorem secondWeightsBlock_apply (k h : Fin 128) :
    iblk m c 5 t (ix2 k h) = secondWeights m c (ix2 k h) := by
  show V m c main_v6 (((cfg0.win 5).blk t).view.emb (ix2 k h)) = _
  rw [found_secondWeights]
  obtain ⟨-, -, -, -, -, -, -, -, -, -, -, e0, e1, -⟩ := index_facts t
  refine congrArg _ (funext fun a => Fin.ext ?_)
  match a with
  | ⟨0, _⟩ => show win0_5.index t (0 : Fin 2) * 128 + 1 * k.val = k.val; omega
  | ⟨1, _⟩ => show win0_5.index t (1 : Fin 2) * 128 + 1 * h.val = h.val; omega

/-- The second bias' block is the whole array. -/
theorem secondBiasBlock_apply (h : Fin 128) :
    iblk m c 6 t (ix1 h) = secondBias m c (ix1 h) := by
  show V m c main_arg5 (((cfg0.win 6).blk t).view.emb (ix1 h)) = _
  rw [V_main_arg5]
  obtain ⟨-, -, -, -, -, -, -, -, -, -, -, -, -, e0, -⟩ := index_facts t
  refine congrArg _ (funext fun a => Fin.ext ?_)
  match a with
  | ⟨0, _⟩ => show win0_6.index t (0 : Fin 1) * 128 + 1 * h.val = h.val; omega

end Blocks

/-! ## What a point writes back, the cover, and the run -/

/-- The block function at an index written by coordinates. -/
theorem blockOut_ix3 (x0 : Vec Ideal S1x128x100 .bf16) (x1 : Vec Ideal S1x128x128 .f32) (x2 x3 : Vec Ideal S100x128 .bf16)
    (x4 : Vec Ideal S128 .f32) (x5 : Vec Ideal S128x128 .bf16) (x6 : Vec Ideal S128 .f32) (u : Fin 1) (i h : Fin 128) :
    blockOut x0 x1 x2 x3 x4 x5 x6 (ix3 u i h)
      = edgeMax (fun k => (∑ f : Fin 100, x0 (ix3 (0 : Fin 1) i f) * x2 (ix2 f k)) + x4 (ix1 k))
          (fun j k => ∑ f : Fin 100, x0 (ix3 (0 : Fin 1) j f) * x3 (ix2 f k))
          (fun k => x5 (ix2 k h)) (x6 (ix1 h)) (fun j => x1 (ix3 (0 : Fin 1) i j)) := rfl

/-- The specification at an index whose coordinates are known. -/
theorem out_of_coords (x : (⟨3, ![16, 128, 100]⟩ : Shape).Idx → EReal) (adj : (⟨3, ![16, 128, 128]⟩ : Shape).Idx → EReal)
    (W1 : (⟨2, ![200, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (y : (⟨3, ![16, 128, 128]⟩ : Shape).Idx) (b : Fin 16) (i h : Fin 128) (h0 : y 0 = b) (h1 : y 1 = i) (h2 : y 2 = h) :
    out x adj W1 b1 W2 b2 y
      = edgeMax (fun k => (∑ f : Fin 100, x (ix3 b i f) * (W1 (ix2 (lo f) k) - W1 (ix2 (hi f) k))) + b1 (ix1 k))
          (fun j k => ∑ f : Fin 100, x (ix3 b j f) * W1 (ix2 (hi f) k))
          (fun k => W2 (ix2 k h)) (b2 (ix1 h)) (fun j => adj (ix3 b i j)) := by
  unfold out uPart vPart
  rw [h0, h1, h2]

/-- WHAT POINT t WRITES BACK is batch t's block of the specification of the argument arrays. -/
theorem flushed_eq (c : Dev nD) (t : Fin cfg0.N) :
    (dats m 0 c).flushed 7 t = ((cfg0.win 7).blk t).view.read (Elt Ideal)
      (out (features m c) (adjacency m c) (firstWeights m c) (firstBias m c) (secondWeights m c) (secondBias m c)) := by
  rw [Cert.KernelIdeal.Value.flushed7]
  funext j
  obtain ⟨u, i, h, rfl⟩ : ∃ (u : Fin 1) (i h : Fin 128), j = ix3 u i h := ⟨j 0, j 1, j 2, eq_ix3 j⟩
  have ht : t.val < 16 := lt_of_lt_of_eq t.isLt N_0
  obtain ⟨-, -, -, -, -, -, -, -, -, -, -, -, -, -, e0, e1, e2⟩ := index_facts t
  have hu : u.val = 0 := by omega
  show out0_7 (iblk m c 0 t) (iblk m c 1 t) (iblk m c 2 t) (iblk m c 3 t) (iblk m c 4 t) (iblk m c 5 t) (iblk m c 6 t) (ix3 u i h)
    = out _ _ _ _ _ _ (((cfg0.win 7).blk t).view.emb (ix3 u i h))
  refine (congrFun (out_eq_blockOut (iblk m c 0 t) (iblk m c 1 t) (iblk m c 2 t) (iblk m c 3 t) (iblk m c 4 t) (iblk m c 5 t) (iblk m c 6 t)) (ix3 u i h)).trans ?_
  refine (blockOut_ix3 (iblk m c 0 t) (iblk m c 1 t) (iblk m c 2 t) (iblk m c 3 t) (iblk m c 4 t) (iblk m c 5 t) (iblk m c 6 t) u i h).trans ?_
  refine Eq.trans ?_ (out_of_coords _ _ _ _ _ _ (((cfg0.win 7).blk t).view.emb (ix3 u i h)) (⟨t.val, ht⟩ : Fin 16) i h
    (Fin.ext (by show win0_7.index t (0 : Fin 3) * 1 + 1 * u.val = t.val; omega))
    (Fin.ext (by show win0_7.index t (1 : Fin 3) * 128 + 1 * i.val = i.val; omega))
    (Fin.ext (by show win0_7.index t (2 : Fin 3) * 128 + 1 * h.val = h.val; omega))).symm
  simp only [featuresBlock_apply m c t (⟨t.val, ht⟩ : Fin 16) rfl, adjacencyBlock_apply m c t (⟨t.val, ht⟩ : Fin 16) rfl,
    differenceBlock_apply m c t, lowerBlock_apply m c t, firstBiasBlock_apply m c t, secondWeightsBlock_apply m c t,
    secondBiasBlock_apply m c t]

/-- An index of the result array is in point t's block iff each coordinate is in the block's range on its axis. -/
theorem mem_block (t : Fin cfg0.N) (i : S16x128x128.Idx) :
    i ∈ ((cfg0.win 7).blk t).view.set ↔ ∀ a : Fin 3, win0_7.index t a * S1x128x128.size a ≤ (i a).val
      ∧ (i a).val < win0_7.index t a * S1x128x128.size a + S1x128x128.size a := by
  show i ∈ ((View.whole main_v8).slice (win0_7.rect t)).set ↔ _
  rw [View.set_slice_whole, Rect.mem_set_unit]
  exact Iff.rfl

/-- Every index of the result array is in the block of the point of its batch. -/
theorem covered (i : S16x128x128.Idx) :
    ∃ t : Fin cfg0.N, (cfg0.win 7).flush t = true ∧ i ∈ ((cfg0.win 7).blk t).view.set := by
  have hi0 : (i 0).val < 16 := (i 0).isLt
  have hi1 : (i 1).val < 128 := (i 1).isLt
  have hi2 : (i 2).val < 128 := (i 2).isLt
  have hN : (i 0).val < cfg0.N := lt_of_lt_of_eq hi0 N_0.symm
  refine ⟨⟨(i 0).val, hN⟩, flush0_7 _, ?_⟩
  rw [mem_block]
  obtain ⟨-, -, -, -, -, -, -, -, -, -, -, -, -, -, e0, e1, e2⟩ := index_facts ⟨(i 0).val, hN⟩
  have e0' : win0_7.index ⟨(i 0).val, hN⟩ (0 : Fin 3) = (i 0).val := e0
  intro a
  match a with
  | ⟨0, _⟩ =>
    show win0_7.index ⟨(i 0).val, hN⟩ (0 : Fin 3) * 1 ≤ (i 0).val ∧ (i 0).val < win0_7.index ⟨(i 0).val, hN⟩ (0 : Fin 3) * 1 + 1
    rw [e0']; omega
  | ⟨1, _⟩ =>
    show win0_7.index ⟨(i 0).val, hN⟩ (1 : Fin 3) * 128 ≤ (i 1).val ∧ (i 1).val < win0_7.index ⟨(i 0).val, hN⟩ (1 : Fin 3) * 128 + 128
    rw [e1]; omega
  | ⟨2, _⟩ =>
    show win0_7.index ⟨(i 0).val, hN⟩ (2 : Fin 3) * 128 ≤ (i 2).val ∧ (i 2).val < win0_7.index ⟨(i 0).val, hN⟩ (2 : Fin 3) * 128 + 128
    rw [e2]; omega

/-- THE RESULT ARRAY after the run is the specification of the argument arrays. -/
theorem final (c : Dev nD) :
    (dats m 0 c).arrAt 7 cfg0.N
      = out (features m c) (adjacency m c) (firstWeights m c) (firstBias m c) (secondWeights m c) (secondBias m c) :=
  (dats m 0 c).arrAt_eq_of_cover 7 _ (fun t _ => flushed_eq m c t) covered

/-- The kernel's run: every weakly fair execution ends with the result array at the specification of the arguments,
    the arguments unchanged. -/
theorem kernel_run : θ_run defs (onTc (τ := τ) (main (F := Ideal))) ⟨m, fun _ => 0, ρ⟩ fun r => ∀ c : Dev nD,
      r.2.mem ((c : Thread nD τ).loc main_v8)
        = out (features m c) (adjacency m c) (firstWeights m c) (firstBias m c) (secondWeights m c) (secondBias m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.PairMax

end
-- ==== Proof.RefValue.lean ====
/-
  The reference's result array is the specification of its argument arrays.

  The reference computes the first layer's two parts for all batches at once, repeats the node's part over the
  neighbours and the neighbours' part over the nodes, adds, applies relu, contracts the hidden channels with the
  second weights, adds the bias, applies relu, multiplies by the adjacency weight repeated over the channels, and takes
  the maximum over the neighbour axis from minus infinity. Read at (batch, node, channel) that is the masked maximum
  of the specification, term by term; the only steps are naming the index each re-arrangement reads.
-/
import proofs.«127921_j56195352101070_2_alg».proof.Proof.Gen.ReferenceIdeal.Read
import proofs.«127921_j56195352101070_2_alg».proof.Proof.Spec
import Idealize.ShloMosaic.PureOps.Ideal.Laws

noncomputable section

open scoped BigOperators

namespace Cert.PairMax

open Idealize.ShloMosaic Idealize.ShloMosaic.ValueIdx Cert.ReferenceIdeal Cert.ReferenceIdeal.Gen Cert.ReferenceIdeal.Read

/-! ## The indices the re-arrangements read, by coordinates -/

section Indices
variable (b : Fin 16) (i j k h : Fin 128) (f : Fin 100)

theorem upperRow_idx : idx_main_v0 (ix2 f k) = ix2 (lo f) k :=
  funext fun a => Fin.ext (by match a with | ⟨0, _⟩ => rfl | ⟨1, _⟩ => rfl)
theorem lowerRow_idx : idx_main_v1 (ix2 f k) = ix2 (hi f) k :=
  funext fun a => Fin.ext (by match a with | ⟨0, _⟩ => rfl | ⟨1, _⟩ => rfl)
theorem nodeDot_lidx : lidx_main_v3 (ix3 b i k) f = ix3 b i f :=
  funext fun a => Fin.ext (by match a with | ⟨0, _⟩ => rfl | ⟨1, _⟩ => rfl | ⟨2, _⟩ => rfl)
theorem nodeDot_ridx : ridx_main_v3 (ix3 b i k) f = ix2 f k :=
  funext fun a => Fin.ext (by match a with | ⟨0, _⟩ => rfl | ⟨1, _⟩ => rfl)
theorem neighbourDot_lidx : lidx_main_v7 (ix3 b j k) f = ix3 b j f :=
  funext fun a => Fin.ext (by match a with | ⟨0, _⟩ => rfl | ⟨1, _⟩ => rfl | ⟨2, _⟩ => rfl)
theorem neighbourDot_ridx : ridx_main_v7 (ix3 b j k) f = ix2 f k :=
  funext fun a => Fin.ext (by match a with | ⟨0, _⟩ => rfl | ⟨1, _⟩ => rfl)
theorem firstBias_idx : idx_main_v4 (idx_main_v5 (ix3 b i k)) = ix1 k :=
  funext fun a => Fin.ext (by match a with | ⟨0, _⟩ => rfl)
theorem nodePart_idx : idx_main_v8 (idx_main_v10 (ix4 b i j k)) = ix3 b i k :=
  funext fun a => Fin.ext (by match a with | ⟨0, _⟩ => rfl | ⟨1, _⟩ => rfl | ⟨2, _⟩ => rfl)
theorem neighbourPart_idx : idx_main_v9 (idx_main_v11 (ix4 b i j k)) = ix3 b j k :=
  funext fun a => Fin.ext (by match a with | ⟨0, _⟩ => rfl | ⟨1, _⟩ => rfl | ⟨2, _⟩ => rfl)
theorem hiddenDot_lidx : lidx_main_v14 (ix4 b i j h) k = ix4 b i j k :=
  funext fun a => Fin.ext (by match a with | ⟨0, _⟩ => rfl | ⟨1, _⟩ => rfl | ⟨2, _⟩ => rfl | ⟨3, _⟩ => rfl)
theorem hiddenDot_ridx : ridx_main_v14 (ix4 b i j h) k = ix2 k h :=
  funext fun a => Fin.ext (by match a with | ⟨0, _⟩ => rfl | ⟨1, _⟩ => rfl)
theorem secondBias_idx : idx_main_v15 (idx_main_v16 (ix4 b i j h)) = ix1 h :=
  funext fun a => Fin.ext (by match a with | ⟨0, _⟩ => rfl)
theorem adjacency_idx : idx_main_v19 (idx_main_v20 (ix4 b i j h)) = ix3 b i j :=
  funext fun a => Fin.ext (by match a with | ⟨0, _⟩ => rfl | ⟨1, _⟩ => rfl | ⟨2, _⟩ => rfl)

end Indices

/-! ## The stages, read at an index -/

section Stages
variable (x0 : (⟨S16x128x100, .f32⟩ : BufTy).Contents (Elt Ideal)) (x1 : (⟨S16x128x128, .f32⟩ : BufTy).Contents (Elt Ideal))
  (x2 : (⟨S200x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))

/-- The reference's node part is the specification's. -/
theorem ref_nodePart (b : Fin 16) (i k : Fin 128) :
    val_main_v6 (F := Ideal) x0 x2 x3 (ix3 b i k) = uPart x0 x2 x3 b i k := by
  unfold uPart
  rw [val_main_v6_apply, val_main_v3_apply, val_main_v5_apply, val_main_v4_apply, firstBias_idx]
  simp only [nodeDot_lidx, nodeDot_ridx, val_main_v2_apply, val_main_v0_apply, val_main_v1_apply, upperRow_idx, lowerRow_idx,
    Ideal.addf_def, Ideal.subf_def]

/-- The reference's neighbour part is the specification's. -/
theorem ref_neighbourPart (b : Fin 16) (j k : Fin 128) :
    val_main_v7 (F := Ideal) x0 x2 (ix3 b j k) = vPart x0 x2 b j k := by
  unfold vPart
  rw [val_main_v7_apply]
  simp only [neighbourDot_lidx, neighbourDot_ridx, val_main_v1_apply, lowerRow_idx]

/-- The hidden value of the pair (i, j) at channel k. -/
theorem ref_hidden (b : Fin 16) (i j k : Fin 128) :
    val_main_v13 (F := Ideal) x0 x2 x3 (ix4 b i j k) = max (uPart x0 x2 x3 b i k + vPart x0 x2 b j k) 0 := by
  rw [val_main_v13_apply, val_main_v12_apply, val_main_v10_apply, val_main_v8_apply, val_main_v11_apply, val_main_v9_apply,
    val_main_call0_v0_apply, val_main_call0_cst_apply, nodePart_idx, neighbourPart_idx, ref_nodePart, ref_neighbourPart,
    Ideal.ofBits_def, Ideal.ofBits_zero_f32, Ideal.maximumf_def, Ideal.addf_def]

/-- The masked second-layer value of the pair (i, j) at channel h. -/
theorem ref_masked (b : Fin 16) (i j h : Fin 128) :
    val_main_v21 (F := Ideal) x0 x1 x2 x3 x4 x5 (ix4 b i j h)
      = max ((∑ k : Fin 128, max (uPart x0 x2 x3 b i k + vPart x0 x2 b j k) 0 * x4 (ix2 k h)) + x5 (ix1 h)) 0 * x1 (ix3 b i j) := by
  rw [val_main_v21_apply, val_main_v20_apply, val_main_v19_apply, adjacency_idx, val_main_v18_apply, val_main_v17_apply,
    val_main_v16_apply, val_main_v15_apply, secondBias_idx, val_main_call1_v0_apply, val_main_call1_cst_apply, val_main_v14_apply,
    Ideal.ofBits_def, Ideal.ofBits_zero_f32, Ideal.maximumf_def, Ideal.addf_def, Ideal.mulf_def]
  simp only [hiddenDot_lidx, hiddenDot_ridx, ref_hidden]

/-- The neighbour axis of the four-axis array is dropped by the maximum. -/
theorem reduces_neighbours : S16x128x128x128.Reduces [2] S16x128x128 := by decide

/-- The same at the index the maximum reads for neighbour j: (batch, node, channel) with j put on the neighbour axis. -/
theorem ref_masked_lift (b : Fin 16) (i h j : Fin 128) :
    val_main_v21 (F := Ideal) x0 x1 x2 x3 x4 x5 (reduces_neighbours.lift (ix3 b i h) j)
      = max ((∑ k : Fin 128, max (uPart x0 x2 x3 b i k + vPart x0 x2 b j k) 0 * x4 (ix2 k h)) + x5 (ix1 h)) 0 * x1 (ix3 b i j) := by
  have hl : reduces_neighbours.lift (ix3 b i h) j = ix4 b i j h :=
    funext fun a => Fin.ext (by match a with | ⟨0, _⟩ => rfl | ⟨1, _⟩ => rfl | ⟨2, _⟩ => rfl | ⟨3, _⟩ => rfl)
  rw [hl, ref_masked]

/-- THE REFERENCE'S RESULT is the specification of its arguments. -/
theorem reference_eq : val_main_v22 (F := Ideal) x0 x1 x2 x3 x4 x5 = out x0 x1 x2 x3 x4 x5 := by
  funext y
  obtain ⟨b, i, h, rfl⟩ : ∃ (b : Fin 16) (i h : Fin 128), y = ix3 b i h := ⟨y 0, y 1, y 2, eq_ix3 y⟩
  unfold val_main_v22
  refine (Host.reduce_eq_fold_single (FloatOps.maximumf (F := Ideal) (φ := .f32)) _ _ reducesTo_S16x128x128x128_S16x128x128_d2
    reduces_neighbours h_S_ (ix3 b i h)).trans ?_
  show (Finset.univ : Finset (Fin 128)).fold max (Ideal.ofBits .f32 0xFF800000#32) _ = edgeMax _ _ _ _ _
  unfold edgeMax
  refine congrArg (fun g => (Finset.univ : Finset (Fin 128)).fold max (Ideal.ofBits .f32 0xFF800000#32) g) (funext fun j => ?_)
  exact ref_masked_lift x0 x1 x2 x3 x4 x5 b i h j

end Stages

end Cert.PairMax

end
-- ==== Proof.lean ====
/-
  The kernel and its reference compute one function on the extended reals.

  Both take node features x [16,128,100], adjacency weights adj [16,128,128] and the weights of a two-layer perceptron
  (W1 [200,128], b1 [128], W2 [128,128], b2 [128]) and return, for every batch b, node i and channel h,

      max over the neighbours j of   relu( (Σ_k relu(u[b,i,k] + v[b,j,k]) · W2[k,h]) + b2[h] ) · adj[b,i,j],
      u[b,i,k] = (Σ_f x[b,i,f] · (W1[f,k] − W1[100+f,k])) + b1[k],     v[b,j,k] = Σ_f x[b,j,f] · W1[100+f,k],

  the maximum starting from minus infinity (Proof/Spec.lean). The reference computes it for all batches at once over a
  four-axis array; the kernel computes one batch per grid point, the first layer once for the batch's 128 nodes and
  the rest in four tiles of 32 nodes. A change of float format is the identity on the extended reals, a matrix product
  into a zero accumulator is the plain sum over the contracted coordinate, and a maximum over an axis is the same fold
  of max whichever program takes it, so the two sides agree term by term: no law of arithmetic beyond that is used, and
  the finiteness of the inputs is never needed.

  The kernel's side: Proof/Layout.lean and Proof/KernelDots.lean read the re-arrangements and the two matrix products
  at an index, Proof/Tile.lean one tile, Proof/Block.lean the block a grid point leaves, Proof/KernelValue.lean the
  result array after the run. The reference's side: Proof/RefValue.lean. The program has no idealization rewrite, so
  the kernel's idealization is its own text read on the extended reals.
-/
import proofs.«127921_j56195352101070_2_alg».proof.Defs
import proofs.«127921_j56195352101070_2_alg».proof.Proof.Gen.Kernel
import proofs.«127921_j56195352101070_2_alg».proof.Proof.Gen.Kernel.Skeleton
import proofs.«127921_j56195352101070_2_alg».proof.Proof.Gen.Kernel.Launch
import proofs.«127921_j56195352101070_2_alg».proof.Proof.Gen.Kernel.Points
import proofs.«127921_j56195352101070_2_alg».proof.Proof.Gen.Kernel.Frame
import proofs.«127921_j56195352101070_2_alg».proof.Proof.Gen.KernelIdeal
import proofs.«127921_j56195352101070_2_alg».proof.Proof.Gen.KernelIdeal.Skeleton
import proofs.«127921_j56195352101070_2_alg».proof.Proof.Gen.KernelIdeal.Launch
import proofs.«127921_j56195352101070_2_alg».proof.Proof.Gen.KernelIdeal.Points
import proofs.«127921_j56195352101070_2_alg».proof.Proof.Gen.KernelIdeal.Frame
import proofs.«127921_j56195352101070_2_alg».proof.Proof.Gen.ReferenceIdeal
import proofs.«127921_j56195352101070_2_alg».proof.Proof.Gen.Pre_finite_inputs
import proofs.«127921_j56195352101070_2_alg».proof.Proof.Gen.KernelIdeal.Value
import proofs.«127921_j56195352101070_2_alg».proof.Proof.Gen.ReferenceIdeal.Run
import proofs.«127921_j56195352101070_2_alg».proof.Proof.Gen.ReferenceIdeal.Read
import proofs.«127921_j56195352101070_2_alg».proof.Proof.KernelValue
import proofs.«127921_j56195352101070_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals. -/
theorem preserves : Cert.preserves_Kernel_KernelIdeal := trivial

/-- From memories agreeing on the arguments both programs end with the result array at the specification of the
    kernel's argument arrays: the kernel's run block by block, the reference's run stage by stage. -/
theorem algebraic : Cert.algebraic_KernelIdeal_ReferenceIdeal := by
  intro m ρ m' ρ' _ hagree
  refine ⟨fun c => Cert.PairMax.out (Cert.PairMax.features m c) (Cert.PairMax.adjacency m c) (Cert.PairMax.firstWeights m c)
    (Cert.PairMax.firstBias m c) (Cert.PairMax.secondWeights m c) (Cert.PairMax.secondBias m c), Cert.PairMax.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.PairMax.reference_eq, (hagree c).1, (hagree c).2.1, (hagree c).2.2.1,
    (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
